-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x128 : Shape := ⟨4, ![16, 128, 128, 128]⟩
abbrev S_ : Shape := ⟨0, ![]⟩

class Facts : Prop where
  bcast_S_S16x128x128x128 : S_.BroadcastsInDim S16x128x128x128 (![] : Fin 0 → Fin S16x128x128x128.rank)
  reducesTo_S16x128x128x128_S_d0_1_2_3 : S16x128x128x128.ReducesTo [0, 1, 2, 3] S_
  h_S_ : 0 < S_.numel

variable [Facts]

def fn {F : FTy → Type} [FloatOps F] (main_arg0 : FVec F S16x128x128x128 .f32) : IVec S_ 1 :=
  let main_v0 : FVec F S16x128x128x128 .f32 := Host.absf main_arg0
  let main_cst : FVec F S_ .f32 := constant S_ .f32 0x7F800000#32
  let main_v1 : FVec F S16x128x128x128 .f32 := broadcastInDim S16x128x128x128 ![] bcast_S_S16x128x128x128 main_cst
  let main_v2 : IVec S16x128x128x128 1 := cmpf .olt main_v0 main_v1
  let main_c : IVec S_ 1 := constantI S_ 1 1#1
  let main_v3 : IVec S_ 1 := (fun x v => Host.reduce IntOp.andi x v reducesTo_S16x128x128x128_S_d0_1_2_3 h_S_) main_v2 main_c
  main_v3
-- ==== Kernel.lean ====
abbrev S16x128x128x128 : Shape := ⟨4, ![16, 128, 128, 128]⟩
abbrev S16x128x256x256 : Shape := ⟨4, ![16, 128, 256, 256]⟩
abbrev S1x32x128x128 : Shape := ⟨4, ![1, 32, 128, 128]⟩
abbrev S1x32x256x256 : Shape := ⟨4, ![1, 32, 256, 256]⟩
abbrev S1x1x128x128 : Shape := ⟨4, ![1, 1, 128, 128]⟩
abbrev S128x128 : Shape := ⟨2, ![128, 128]⟩
abbrev S128x128x1 : Shape := ⟨3, ![128, 128, 1]⟩
abbrev S128x128x2 : Shape := ⟨3, ![128, 128, 2]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x1x256x256 : Shape := ⟨4, ![1, 1, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S16x128x128x128, .f32⟩
  | .hbm, ⟨1, _⟩ => ⟨S16x128x256x256, .f32⟩
  | .local _ .vmem, ⟨0, _⟩ => ⟨S1x32x128x128, .f32⟩
  | .local _ .vmem, ⟨1, _⟩ => ⟨S1x32x128x128, .f32⟩
  | .local _ .vmem, ⟨2, _⟩ => ⟨S1x32x256x256, .f32⟩
  | .local _ .vmem, ⟨3, _⟩ => ⟨S1x32x256x256, .f32⟩
  | _, _ => ⟨S16x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 4 → Nat :=
  let c0 : Index := 0#32
  let c0_i32 : BitVec 32 := 0#32
  let c1_i32 : BitVec 32 := 1#32
  let arg4 : BitVec 32 := Scf.iv c0_i32 c1_i32 k0_t1
  let v1 : Index := Scalar.indexCast arg4
  let c0_1 : Index := 0#32
  let c0_2 : Index := 0#32
  ![0, v1.toNat, 0, 0]
def k0_off2 (k0_t1 : Fin k0_t1_loop.trips) : Fin 4 → Nat :=
  let c0_3 : Index := 0#32
  let c0_i32 : BitVec 32 := 0#32
  let c1_i32 : BitVec 32 := 1#32
  let arg4 : BitVec 32 := Scf.iv c0_i32 c1_i32 k0_t1
  let v10 : Index := Scalar.indexCast arg4
  let c0_4 : Index := 0#32
  let c0_5 : Index := 0#32
  ![0, v10.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S1x1x128x128 : 0 < S1x1x128x128.numel
  shapeCasts_S1x1x128x128_S128x128 : S1x1x128x128.ShapeCasts S128x128
  shapeCasts_S128x128_S128x128x1 : S128x128.ShapeCasts S128x128x1
  broadcasts_S128x128x1_S128x128x2 : S128x128x1.Broadcasts S128x128x2
  shapeCasts_S128x128x2_S128x256 : S128x128x2.ShapeCasts S128x256
  shapeCasts_S128x256_S128x1x256 : S128x256.ShapeCasts S128x1x256
  broadcasts_S128x1x256_S128x2x256 : S128x1x256.Broadcasts S128x2x256
  shapeCasts_S128x2x256_S256x256 : S128x2x256.ShapeCasts S256x256
  h_S1x1x256x256 : 0 < S1x1x256x256.numel
  shapeCasts_S1x1x256x256_S256x256 : S1x1x256x256.ShapeCasts S256x256
  shapeCasts_S256x256_S1x1x256x256 : S256x256.ShapeCasts S1x1x256x256
  hrank0 : 0 < grid0.rank
  k0_t1_ok : k0_t1_loop.OK
  k0_off1_inb : ∀ k0_t1 : Fin k0_t1_loop.trips, ∀ a, (k0_off1 k0_t1) a + S1x1x128x128.size a ≤ S1x32x128x128.size a
  k0_off2_inb : ∀ k0_t1 : Fin k0_t1_loop.trips, ∀ a, (k0_off2 k0_t1) a + S1x1x256x256.size a ≤ S1x32x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x128.size a ≤ S16x128x128x128.size a
  hwx0_0 : ∀ i : grid0.Coords, EltTy.bits .f32 = 32 ∨ (Rect.block (s := S16x128x128x128) S1x32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x256x256.size a ≤ S16x128x256x256.size a
  hwx0_1 : ∀ i : grid0.Coords, EltTy.bits .f32 = 32 ∨ (Rect.block (s := S16x128x256x256) S1x32x256x256.size (cc0_transform_1 i) (hinb0_1 i)).WholeWords (EltTy.packing .f32)

variable [Facts₀]

abbrev win0_0 : Pipeline.Window sig grid0 :=
  Pipeline.Window.ofSpec (Memref.whole main_arg0) S1x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x128x128x128 : Shape := ⟨4, ![16, 128, 128, 128]⟩
abbrev S16x128x128x128x2 : Shape := ⟨5, ![16, 128, 128, 128, 2]⟩
abbrev S16x128x128x256 : Shape := ⟨4, ![16, 128, 128, 256]⟩
abbrev S16x128x128x2x256 : Shape := ⟨5, ![16, 128, 128, 2, 256]⟩
abbrev S16x128x256x256 : Shape := ⟨4, ![16, 128, 256, 256]⟩

abbrev nBuf : Space → Nat
  | .hbm => 5
  | .vmem => 0
  | .smem => 0
  | _ => 0

abbrev bufTy : (tb : Table) → Fin (tcTables nBuf tb) → BufTy
  | .hbm, ⟨0, _⟩ => ⟨S16x128x128x128, .f32⟩
  | .hbm, ⟨1, _⟩ => ⟨S16x128x128x128x2, .f32⟩
  | .hbm, ⟨2, _⟩ => ⟨S16x128x128x256, .f32⟩
  | .hbm, ⟨3, _⟩ => ⟨S16x128x128x2x256, .f32⟩
  | .hbm, ⟨4, _⟩ => ⟨S16x128x256x256, .f32⟩
  | _, _ => ⟨S16x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]

class Facts₀ : Prop where
  bcast_S16x128x128x128_S16x128x128x128x2_0_1_2_3 : S16x128x128x128.BroadcastsInDim S16x128x128x128x2 (![0, 1, 2, 3] : Fin 4 → Fin S16x128x128x128x2.rank)
  shapeCasts_S16x128x128x128x2_S16x128x128x256 : S16x128x128x128x2.ShapeCasts S16x128x128x256
  bcast_S16x128x128x256_S16x128x128x2x256_0_1_2_4 : S16x128x128x256.BroadcastsInDim S16x128x128x2x256 (![0, 1, 2, 4] : Fin 4 → Fin S16x128x128x2x256.rank)
  shapeCasts_S16x128x128x2x256_S16x128x256x256 : S16x128x128x2x256.ShapeCasts S16x128x256x256

variable [Facts₀]

class Facts : Prop extends Facts₀ where

variable [Facts]
-- ==== Proof.Upsample.lean ====
/-
  Nearest-neighbour upsampling by two along the last two axes of a rank-4 array: the entry at
  (b, c, i, j) of the result is the entry at (b, c, i / 2, j / 2) of the argument. The same
  function is stated at the three extents the certificate meets it at: the whole array
  [16, 128, 128, 128] → [16, 128, 256, 256], a pipeline block of 32 channels of one batch entry,
  and the one channel a loop trip moves. A block of the upsampled array is the upsampled block,
  because halving a coordinate commutes with adding an even offset to it; here the offsets on the
  two halved axes are zero.
-/
import Idealize.ShloMosaic.PureOps.Ideal
import Idealize.ShloMosaic.Lib.ValueIdx

noncomputable section

namespace Cert.Upsample

open Idealize.ShloMosaic Idealize.ShloMosaic.ValueIdx

/-- Half of a coordinate below 256, rounded down: the source row (or column) of a doubled row (or column). -/
def half (a : Fin 256) : Fin 128 := ⟨a.val / 2, by have := a.isLt; omega⟩

theorem half_val (a : Fin 256) : (half a).val = a.val / 2 := rfl

variable {α : Type}

/-- The whole array upsampled. -/
def upArray (x : (⟨4, ![16, 128, 128, 128]⟩ : Shape).Idx → α) : (⟨4, ![16, 128, 256, 256]⟩ : Shape).Idx → α :=
  fun i => x (ix4 (i 0) (i 1) (half (i 2)) (half (i 3)))

/-- A block of 32 channels of one batch entry upsampled. -/
def upBlock (x : (⟨4, ![1, 32, 128, 128]⟩ : Shape).Idx → α) : (⟨4, ![1, 32, 256, 256]⟩ : Shape).Idx → α :=
  fun i => x (ix4 (i 0) (i 1) (half (i 2)) (half (i 3)))

/-- One channel upsampled. -/
def upSlice (x : (⟨4, ![1, 1, 128, 128]⟩ : Shape).Idx → α) : (⟨4, ![1, 1, 256, 256]⟩ : Shape).Idx → α :=
  fun i => x (ix4 (i 0) (i 1) (half (i 2)) (half (i 3)))

end Cert.Upsample

end
-- ==== Proof.Payload.lean ====
/-
  What one loop trip stores, as a function of what it loads: the kernel doubles a 128 × 128 channel
  along its columns by viewing it [128, 128, 1], broadcasting the last axis to 2 and flattening to
  [128, 256]; then along its rows by viewing that [128, 1, 256], broadcasting the middle axis to 2 and
  flattening to [256, 256]. Reading the chain from the stored value back to the loaded one: row i of
  the result is row i / 2 of the row-doubled stage (a flattening of [128, 2, ·] puts i at (i / 2, i % 2)),
  column j is column j / 2 of the loaded channel for the same reason. So the stored value is the loaded
  channel upsampled.
-/
import proofs.«114544_j57312043598151_2_alg».proof.Proof.Gen.KernelIdeal.Skeleton
import proofs.«114544_j57312043598151_2_alg».proof.Proof.Upsample
import Idealize.ShloMosaic.Lib.Pipeline.Value
import Idealize.ShloMosaic.Lib.ValueIdx

noncomputable section

namespace Cert.KernelIdeal.Hand

open Cert.KernelIdeal Cert.KernelIdeal.Gen Cert.Upsample
open Idealize.ShloMosaic Idealize.ShloMosaic.ValueIdx

variable {F : FTy → Type} [FloatOps F]

/-- The value a trip stores is the channel it loaded, upsampled. -/
theorem pay_eq (v2 : Vec F S1x1x128x128 .f32) : k0_pay1 v2 = upSlice v2 := by
  funext y
  have h0 : (y 0).val < 1 := (y 0).isLt
  have h1 : (y 1).val < 1 := (y 1).isLt
  have h2 : (y 2).val < 256 := (y 2).isLt
  have h3 : (y 3).val < 256 := (y 3).isLt
  -- the coordinates the chain passes through, outermost operation first
  let r : Fin 256 := ⟨(y 2).val, h2⟩
  let q : Fin 256 := ⟨(y 3).val, h3⟩
  let a : Fin 128 := half r
  let b : Fin 2 := ⟨(y 2).val % 2, by omega⟩
  let p : Fin 128 := half q
  let e : Fin 2 := ⟨(y 3).val % 2, by omega⟩
  unfold k0_pay1
  refine (shapeCast_apply _ shapeCasts_S256x256_S1x1x256x256 y (ix2 r q) ?_).trans ?_
  · rw [Shape.rowMajor_val_two, Shape.rowMajor_val_four]
    show (y 2).val * 256 + (y 3).val = (((y 0).val * 1 + (y 1).val) * 256 + (y 2).val) * 256 + (y 3).val
    omega
  refine (shapeCast_apply _ shapeCasts_S128x2x256_S256x256 (ix2 r q) (ix3 a b q) ?_).trans ?_
  · rw [Shape.rowMajor_val_three, Shape.rowMajor_val_two]
    show ((y 2).val / 2 * 2 + (y 2).val % 2) * 256 + (y 3).val = (y 2).val * 256 + (y 3).val
    omega
  refine (broadcastTo_apply _ broadcasts_S128x1x256_S128x2x256 (ix3 a b q) (ix3 a (0 : Fin 1) q) (fun d => ?_)).trans ?_
  · match d with
    | ⟨0, _⟩ => rfl
    | ⟨1, _⟩ => rfl
    | ⟨2, _⟩ => rfl
  refine (shapeCast_apply _ shapeCasts_S128x256_S128x1x256 (ix3 a (0 : Fin 1) q) (ix2 a q) ?_).trans ?_
  · rw [Shape.rowMajor_val_two, Shape.rowMajor_val_three]
    show (y 2).val / 2 * 256 + (y 3).val = ((y 2).val / 2 * 1 + 0) * 256 + (y 3).val
    omega
  refine (shapeCast_apply _ shapeCasts_S128x128x2_S128x256 (ix2 a q) (ix3 a p e) ?_).trans ?_
  · rw [Shape.rowMajor_val_three, Shape.rowMajor_val_two]
    show ((y 2).val / 2 * 128 + (y 3).val / 2) * 2 + (y 3).val % 2 = (y 2).val / 2 * 256 + (y 3).val
    omega
  refine (broadcastTo_apply _ broadcasts_S128x128x1_S128x128x2 (ix3 a p e) (ix3 a p (0 : Fin 1)) (fun d => ?_)).trans ?_
  · match d with
    | ⟨0, _⟩ => rfl
    | ⟨1, _⟩ => rfl
    | ⟨2, _⟩ => rfl
  refine (shapeCast_apply _ shapeCasts_S128x128_S128x128x1 (ix3 a p (0 : Fin 1)) (ix2 a p) ?_).trans ?_
  · rw [Shape.rowMajor_val_two, Shape.rowMajor_val_three]
    show (y 2).val / 2 * 128 + (y 3).val / 2 = ((y 2).val / 2 * 128 + (y 3).val / 2) * 1 + 0
    omega
  refine (shapeCast_apply _ shapeCasts_S1x1x128x128_S128x128 (ix2 a p) (ix4 (y 0) (y 1) a p) ?_).trans ?_
  · rw [Shape.rowMajor_val_four, Shape.rowMajor_val_two]
    show (((y 0).val * 1 + (y 1).val) * 128 + (y 2).val / 2) * 128 + (y 3).val / 2 = (y 2).val / 2 * 128 + (y 3).val / 2
    omega
  rfl

end Cert.KernelIdeal.Hand

end
-- ==== Proof.Block.lean ====
/-
  What the body leaves in the output's staging buffer at one grid point. The body is a loop of 32
  trips; trip k loads channel k of the staged input block, upsamples it, and stores it as channel k of
  the staged output block. So every store is the restriction, to the channel it writes, of ONE
  function of the block index: the staged input block upsampled (the channel coordinate is carried
  over unchanged, and the two doubled coordinates start at offset zero, so halving them commutes with
  the store's placement). Thirty-two such stores, which together cover the block, leave that function.
-/
import proofs.«114544_j57312043598151_2_alg».proof.Proof.Gen.KernelIdeal.Frame
import proofs.«114544_j57312043598151_2_alg».proof.Proof.Payload
import Idealize.ShloMosaic.Lib.Pipeline.Value

noncomputable section

namespace Cert.KernelIdeal.Hand

open Cert.KernelIdeal Cert.KernelIdeal.Gen Cert.Upsample
open Idealize.ShloMosaic Idealize.ShloMosaic.TcCoe Idealize.ShloMosaic.ValueIdx Idealize.SL.Sem

variable {F : FTy → Type} [FloatOps F]

/-- Trip k's stores: one, through the rectangle of channel k of the output block, of the upsampling
    payload of what the trip loads through the rectangle of channel k of the input block. -/
theorem trip_piece (𝒱 : Variants) (c : Dev nD) (bd : Option 𝒱.V) (i : grid0.Coords) (arg2 : Memref sig .tc .vmem S1x32x128x128 .f32) (harg2 : arg2.IsWhole) (arg3 : Memref sig .tc .vmem S1x32x256x256 .f32) (harg3 : arg3.IsWhole)
    (X : BufTy.Contents (Elt F) arg2.view.ty) (k : Fin k0_t1_loop.trips) :
    tripL_k0_t1 (F := F) 𝒱 c bd i arg2 harg2 arg3 harg3 X k
      = [⟨Rect.unit (s := S1x32x256x256) (k0_off2 k) S1x1x256x256.size (k0_off2_inb k),
          k0_pay1 (View.readAt (Elt F) arg2.view (Rect.unit (s := S1x32x128x128) (k0_off1 k) S1x1x128x128.size (k0_off1_inb k)).toLoadRect X)⟩] := by
  show (trip_k0_t1 (F := F) 𝒱 c bd i arg2 harg2 arg3 harg3 X k).1 = _
  unfold trip_k0_t1
  rfl

/-- The body's stores at a grid point are those of its 32 trips. -/
theorem run_pieces (c : Dev nD) (i : grid0.Coords) (arg2 : Memref sig .tc .vmem S1x32x128x128 .f32) (harg2 : arg2.IsWhole) (arg3 : Memref sig .tc .vmem S1x32x256x256 .f32) (harg3 : arg3.IsWhole) (x0 : Vec F S1x32x128x128 .f32) :
    (kernelRun0_A (F := F) c i arg2 harg2 arg3 harg3 x0).1
      = pb_k0_t1 (F := F) Variants.none c none i arg2 harg2 arg3 harg3 (harg2.unread x0) k0_t1_loop.trips := by
  unfold kernelRun0_A
  rfl

/-- Trip k's stored value, at an index of the channel, is the upsampled input block at the place in the
    output block where the store puts that index. -/
theorem piece_agrees (arg2 : Memref sig .tc .vmem S1x32x128x128 .f32) (harg2 : arg2.IsWhole) (x0 : Vec F S1x32x128x128 .f32)
    (k : Fin k0_t1_loop.trips) (x : S1x1x256x256.Idx) :
    k0_pay1 (View.readAt (Elt F) arg2.view (Rect.unit (s := S1x32x128x128) (k0_off1 k) S1x1x128x128.size (k0_off1_inb k)).toLoadRect (harg2.unread x0)) x
      = upBlock x0 ((Rect.unit (s := S1x32x256x256) (k0_off2 k) S1x1x256x256.size (k0_off2_inb k)).emb x) := by
  have a0 : k0_off1 k 0 = 0 := by rw [k0_off1_eq]; rfl
  have a1 : k0_off1 k 1 = k.val := by rw [k0_off1_eq]; rfl
  have a2 : k0_off1 k 2 = 0 := by rw [k0_off1_eq]; rfl
  have a3 : k0_off1 k 3 = 0 := by rw [k0_off1_eq]; rfl
  have b0 : k0_off2 k 0 = 0 := by rw [k0_off2_eq]; rfl
  have b1 : k0_off2 k 1 = k.val := by rw [k0_off2_eq]; rfl
  have b2 : k0_off2 k 2 = 0 := by rw [k0_off2_eq]; rfl
  have b3 : k0_off2 k 3 = 0 := by rw [k0_off2_eq]; rfl
  have h0 : (x 0).val < 1 := (x 0).isLt
  have h1 : (x 1).val < 1 := (x 1).isLt
  rw [pay_eq, View.readAt_eq_ld, harg2.read_unread]
  unfold upSlice upBlock
  show x0 _ = x0 _
  refine congrArg x0 (funext fun a => Fin.ext ?_)
  match a with
  | ⟨0, _⟩ => show k0_off1 k 0 + 1 * (x 0).val = k0_off2 k 0 + 1 * (x 0).val; omega
  | ⟨1, _⟩ => show k0_off1 k 1 + 1 * (x 1).val = k0_off2 k 1 + 1 * (x 1).val; omega
  | ⟨2, _⟩ => show k0_off1 k 2 + 1 * ((x 2).val / 2) = (k0_off2 k 2 + 1 * (x 2).val) / 2; omega
  | ⟨3, _⟩ => show k0_off1 k 3 + 1 * ((x 3).val / 2) = (k0_off2 k 3 + 1 * (x 3).val) / 2; omega

/-- Every store of the first n trips is a restriction of the upsampled input block. -/
theorem pieces_agree (c : Dev nD) (i : grid0.Coords) (arg2 : Memref sig .tc .vmem S1x32x128x128 .f32) (harg2 : arg2.IsWhole) (arg3 : Memref sig .tc .vmem S1x32x256x256 .f32) (harg3 : arg3.IsWhole) (x0 : Vec F S1x32x128x128 .f32) :
    ∀ (n : ℕ) (_ : n ≤ k0_t1_loop.trips), ∀ p ∈ pb_k0_t1 (F := F) Variants.none c none i arg2 harg2 arg3 harg3 (harg2.unread x0) n,
      ∀ x : p.1.shape.Idx, p.2 x = upBlock x0 (p.1.emb x)
  | 0, _ => fun p hp => absurd hp List.not_mem_nil
  | n + 1, hn => fun p hp x => by
    have e := pb_k0_t1_succ (F := F) Variants.none c none i arg2 harg2 arg3 harg3 (harg2.unread x0) ⟨n, hn⟩
    rw [show (⟨n, hn⟩ : Fin k0_t1_loop.trips).val + 1 = n + 1 from rfl] at e
    rw [e, trip_piece] at hp
    rcases List.mem_append.mp hp with h | h
    · obtain rfl := List.mem_singleton.mp h
      exact piece_agrees arg2 harg2 x0 ⟨n, hn⟩ x
    · exact pieces_agree c i arg2 harg2 arg3 harg3 x0 n (Nat.le_of_succ_le hn) p h x

/-- What the body leaves in the output's staging buffer: the staged input block, upsampled. -/
theorem out_eq (c : Dev nD) (i : grid0.Coords) (arg2 : Memref sig .tc .vmem S1x32x128x128 .f32) (harg2 : arg2.IsWhole) (arg3 : Memref sig .tc .vmem S1x32x256x256 .f32) (harg3 : arg3.IsWhole) (x0 : Vec F S1x32x128x128 .f32) :
    out0_A_1 (F := F) c i arg2 harg2 arg3 harg3 x0 = upBlock x0 := by
  funext y
  unfold out0_A_1
  rw [View.read_writes_junk_apply_eq_canon]
  refine View.canon_apply_of_pieces (upBlock x0) _ ?_ y (cover0_A_1 c i arg2 harg2 arg3 harg3 x0 y)
  rw [run_pieces]
  exact pieces_agree c i arg2 harg2 arg3 harg3 x0 k0_t1_loop.trips (Nat.le_refl _)

end Cert.KernelIdeal.Hand

end
-- ==== Proof.Array.lean ====
/-
  From blocks to the whole result. The grid has 16 × 4 points; at point (b, g) the pipeline stages
  channels 32 g … 32 g + 31 of batch entry b of the argument, the body leaves that block upsampled, and
  the pipeline writes it back as channels 32 g … 32 g + 31 of batch entry b of the result. Both windows
  have the same block index (b, g, 0, 0). An element of a block sits in its array at block index × block
  size + its coordinate inside the block; on the batch and channel axes the two arrays' coordinates are
  therefore the same, and on the two doubled axes the block index is 0, so halving the coordinate inside
  the block is halving the coordinate in the array. Hence what each point writes back is its block of the
  upsampled argument, and since the 64 blocks tile the result, the result ends as the upsampled argument.
-/
import proofs.«114544_j57312043598151_2_alg».proof.Proof.Gen.KernelIdeal.Value
import proofs.«114544_j57312043598151_2_alg».proof.Proof.Block
import Idealize.ShloMosaic.Lib.Pipeline.Value

noncomputable section

namespace Cert.KernelIdeal.Hand

open Cert.KernelIdeal Cert.KernelIdeal.Gen Cert.Upsample
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The two windows' block indices agree at every grid point, are zero on the two doubled axes, and
    stay inside the 16 batch entries and the 4 channel groups (decided over the 64 points). -/
theorem idx_facts : ∀ t : Fin cfg0.N,
    win0_0.index t (0 : Fin 4) = win0_1.index t (0 : Fin 4)
    ∧ win0_0.index t (1 : Fin 4) = win0_1.index t (1 : Fin 4)
    ∧ win0_0.index t (2 : Fin 4) = win0_1.index t (2 : Fin 4)
    ∧ win0_0.index t (3 : Fin 4) = win0_1.index t (3 : Fin 4)
    ∧ win0_1.index t (2 : Fin 4) = 0
    ∧ win0_1.index t (3 : Fin 4) = 0 :=
  (by decide +kernel : ∀ t : Fin grid0.N, _)

/-- Every (batch entry, channel group) is some grid point's block index. -/
theorem idx_onto : ∀ (q0 : Fin 16) (q1 : Fin 4), ∃ t : Fin cfg0.N, win0_1.index t = ![q0.val, q1.val, 0, 0] :=
  (by decide +kernel : ∀ (q0 : Fin 16) (q1 : Fin 4), ∃ t : Fin grid0.N, win0_1.index t = ![q0.val, q1.val, 0, 0])

/-- An element of the input block at point t is the argument's element at block index × block size +
    the coordinate inside the block, on each axis. -/
theorem iblk_apply (c : Dev nD) (t : Fin cfg0.N) (x : S1x32x128x128.Idx) (k : S16x128x128x128.Idx)
    (hk0 : (k 0).val = win0_0.index t (0 : Fin 4) * 1 + (x 0).val)
    (hk1 : (k 1).val = win0_0.index t (1 : Fin 4) * 32 + (x 1).val)
    (hk2 : (k 2).val = win0_0.index t (2 : Fin 4) * 128 + (x 2).val)
    (hk3 : (k 3).val = win0_0.index t (3 : Fin 4) * 128 + (x 3).val) :
    (iblk m c 0 t : Vec F S1x32x128x128 .f32) x = (V m c main_arg0 : S16x128x128x128.Idx → Elt F .f32) k := by
  unfold iblk
  rw [View.read_apply]
  show V m c main_arg0 _ = V m c main_arg0 _
  refine congrArg (V m c main_arg0) (funext fun a => Fin.ext ?_)
  match a with
  | ⟨0, _⟩ => show win0_0.index t (0 : Fin 4) * 1 + 1 * (x 0).val = (k 0).val; omega
  | ⟨1, _⟩ => show win0_0.index t (1 : Fin 4) * 32 + 1 * (x 1).val = (k 1).val; omega
  | ⟨2, _⟩ => show win0_0.index t (2 : Fin 4) * 128 + 1 * (x 2).val = (k 2).val; omega
  | ⟨3, _⟩ => show win0_0.index t (3 : Fin 4) * 128 + 1 * (x 3).val = (k 3).val; omega

/-- The upsampled input block at point t, at a block index j, is the upsampled argument at the array
    index i where the output window puts j. -/
theorem block_of_up (c : Dev nD) (t : Fin cfg0.N) (j : S1x32x256x256.Idx) (i : S16x128x256x256.Idx)
    (h0 : (i 0).val = win0_1.index t (0 : Fin 4) * 1 + (j 0).val)
    (h1 : (i 1).val = win0_1.index t (1 : Fin 4) * 32 + (j 1).val)
    (h2 : (i 2).val = win0_1.index t (2 : Fin 4) * 256 + (j 2).val)
    (h3 : (i 3).val = win0_1.index t (3 : Fin 4) * 256 + (j 3).val) :
    upBlock (iblk m c 0 t : Vec F S1x32x128x128 .f32) j = upArray (V m c main_arg0 : S16x128x128x128.Idx → Elt F .f32) i := by
  obtain ⟨e0, e1, e2, e3, z2, z3⟩ := idx_facts t
  unfold upBlock upArray
  refine iblk_apply m c t _ _ ?_ ?_ ?_ ?_
  · show (i 0).val = win0_0.index t (0 : Fin 4) * 1 + (j 0).val; omega
  · show (i 1).val = win0_0.index t (1 : Fin 4) * 32 + (j 1).val; omega
  · show (i 2).val / 2 = win0_0.index t (2 : Fin 4) * 128 + (j 2).val / 2; omega
  · show (i 3).val / 2 = win0_0.index t (3 : Fin 4) * 128 + (j 3).val / 2; omega

/-- What point t writes back is its block of the upsampled argument. -/
theorem flushed_eq (c : Dev nD) (t : Fin cfg0.N) :
    (dats m 0 c).flushed 1 t = ((cfg0.win 1).blk t).view.read (Elt F) (upArray (V m c main_arg0 : S16x128x128x128.Idx → Elt F .f32)) := by
  rw [Cert.KernelIdeal.Value.flushed1_A, out_eq c (grid0.coords t) (ms0_0 t) (hs0_0 t) (ms0_1 t) (hs0_1 t) (iblk m c 0 t)]
  funext j
  rw [View.read_apply]
  refine block_of_up m c t _ _ ?_ ?_ ?_ ?_
  · show win0_1.index t (0 : Fin 4) * 1 + 1 * (j 0).val = win0_1.index t (0 : Fin 4) * 1 + (j 0).val; omega
  · show win0_1.index t (1 : Fin 4) * 32 + 1 * (j 1).val = win0_1.index t (1 : Fin 4) * 32 + (j 1).val; omega
  · show win0_1.index t (2 : Fin 4) * 256 + 1 * (j 2).val = win0_1.index t (2 : Fin 4) * 256 + (j 2).val; omega
  · show win0_1.index t (3 : Fin 4) * 256 + 1 * (j 3).val = win0_1.index t (3 : Fin 4) * 256 + (j 3).val; omega

/-- An index of the result is in point t's block iff each coordinate is in the block's range on its axis. -/
theorem mem_blk (t : Fin cfg0.N) (i : S16x128x256x256.Idx) :
    i ∈ ((cfg0.win 1).blk t).view.set ↔ ∀ a : Fin 4, win0_1.index t a * S1x32x256x256.size a ≤ (i a).val ∧ (i a).val < win0_1.index t a * S1x32x256x256.size a + S1x32x256x256.size a := by
  show i ∈ ((View.whole main_v0).slice (win0_1.rect t)).set ↔ _
  rw [View.set_slice_whole, Rect.mem_set_unit]
  exact Iff.rfl

/-- The 64 blocks tile the result: the index (b, ch, i, j) is in the block of the point whose block
    index is (b, ch / 32, 0, 0). -/
theorem cover (i : S16x128x256x256.Idx) :
    ∃ t : Fin cfg0.N, (cfg0.win 1).flush t = true ∧ i ∈ ((cfg0.win 1).blk t).view.set := by
  have h0 : (i 0).val < 16 := (i 0).isLt
  have h1 : (i 1).val < 128 := (i 1).isLt
  have h2 : (i 2).val < 256 := (i 2).isLt
  have h3 : (i 3).val < 256 := (i 3).isLt
  obtain ⟨t, ht⟩ := idx_onto ⟨(i 0).val, h0⟩ ⟨(i 1).val / 32, by omega⟩
  have q0 : win0_1.index t (0 : Fin 4) = (i 0).val := congrFun ht 0
  have q1 : win0_1.index t (1 : Fin 4) = (i 1).val / 32 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 32 ≤ (i 1).val ∧ (i 1).val < win0_1.index t (1 : Fin 4) * 32 + 32; omega
  | ⟨2, _⟩ => show win0_1.index t (2 : Fin 4) * 256 ≤ (i 2).val ∧ (i 2).val < win0_1.index t (2 : Fin 4) * 256 + 256; omega
  | ⟨3, _⟩ => show win0_1.index t (3 : Fin 4) * 256 ≤ (i 3).val ∧ (i 3).val < win0_1.index t (3 : Fin 4) * 256 + 256; omega

/-- After the run the result array is the upsampled argument. -/
theorem final (c : Dev nD) :
    (dats m 0 c).arrAt 1 cfg0.N = upArray (V m c main_arg0 : S16x128x128x128.Idx → Elt F .f32) :=
  (dats m 0 c).arrAt_eq_of_cover 1 (upArray (V m c main_arg0 : S16x128x128x128.Idx → Elt F .f32)) (fun t _ => flushed_eq m c t) cover

/-- The kernel's run: it terminates with the result at the upsampled argument and the argument unchanged. -/
theorem run : θ_run defs (onTc (τ := τ) (main (F := F))) ⟨m, fun _ => 0, ρ⟩ fun r => ∀ c : Dev nD,
      r.2.mem ((c : Thread nD τ).loc main_v0) = upArray (m ((c : Thread nD τ).loc main_arg0) : S16x128x128x128.Idx → Elt F .f32)
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Hand

end
-- ==== Proof.Reference.lean ====
/-
  The reference is the same upsampling, written on the whole array. It repeats every column by
  broadcasting a new last axis of extent 2 and flattening it into the column axis ([.., 128, 2] → 256:
  column j of the result comes from position (j / 2, j % 2), hence from column j / 2), then repeats every
  row the same way on a new axis next to the row axis ([.., 128, 2, 256] → [.., 256, 256]: row i comes
  from (i / 2, i % 2), hence from row i / 2). Read from the result back to the argument, the four
  operations compose to: entry (b, c, i, j) is the argument's entry (b, c, i / 2, j / 2).
-/
import proofs.«114544_j57312043598151_2_alg».proof.Proof.Gen.ReferenceIdeal.Read
import proofs.«114544_j57312043598151_2_alg».proof.Proof.Upsample
import Idealize.ShloMosaic.Lib.ValueIdx

noncomputable section

namespace Cert.ReferenceIdeal.Hand

open Cert.ReferenceIdeal Cert.ReferenceIdeal.Read Cert.Upsample
open Idealize.ShloMosaic Idealize.ShloMosaic.ValueIdx

variable {F : FTy → Type} [FloatOps F]

/-- The reference's result at (a, b, r, q) is its argument at (a, b, r / 2, q / 2). -/
theorem ref_at (x : (⟨S16x128x128x128, .f32⟩ : BufTy).Contents (Elt F)) (a : Fin 16) (b : Fin 128) (r q : Fin 256) :
    val_main_v3 (F := F) x (ix4 a b r q) = x (ix4 a b (half r) (half q)) := by
  have ha : a.val < 16 := a.isLt
  have hb : b.val < 128 := b.isLt
  have hr : r.val < 256 := r.isLt
  have hq : q.val < 256 := q.isLt
  -- un-flattening the row axis: row r sits at (r / 2, r % 2)
  have e3 : idx_main_v3 (ix4 a b r q) = ix5 a b (half r) (⟨r.val % 2, by omega⟩ : Fin 2) q := by
    funext d; apply Fin.ext
    match d with
    | ⟨0, _⟩ => show (((a.val * 128 + b.val) * 256 + r.val) * 256 + q.val) / 8388608 = a.val; omega
    | ⟨1, _⟩ => show (((a.val * 128 + b.val) * 256 + r.val) * 256 + q.val) / 65536 % 128 = b.val; omega
    | ⟨2, _⟩ => show (((a.val * 128 + b.val) * 256 + r.val) * 256 + q.val) / 512 % 128 = r.val / 2; omega
    | ⟨3, _⟩ => show (((a.val * 128 + b.val) * 256 + r.val) * 256 + q.val) / 256 % 2 = r.val % 2; omega
    | ⟨4, _⟩ => show (((a.val * 128 + b.val) * 256 + r.val) * 256 + q.val) % 256 = q.val; omega
  -- the broadcast along the new row axis forgets r % 2
  have e2 : idx_main_v2 (ix5 a b (half r) (⟨r.val % 2, by omega⟩ : Fin 2) q) = ix4 a b (half r) q := by
    funext d
    match d with
    | ⟨0, _⟩ => rfl
    | ⟨1, _⟩ => rfl
    | ⟨2, _⟩ => rfl
    | ⟨3, _⟩ => rfl
  -- un-flattening the column axis: column q sits at (q / 2, q % 2)
  have e1 : idx_main_v1 (ix4 a b (half r) q) = ix5 a b (half r) (half q) (⟨q.val % 2, by omega⟩ : Fin 2) := by
    funext d; apply Fin.ext
    match d with
    | ⟨0, _⟩ => show (((a.val * 128 + b.val) * 128 + r.val / 2) * 256 + q.val) / 4194304 = a.val; omega
    | ⟨1, _⟩ => show (((a.val * 128 + b.val) * 128 + r.val / 2) * 256 + q.val) / 32768 % 128 = b.val; omega
    | ⟨2, _⟩ => show (((a.val * 128 + b.val) * 128 + r.val / 2) * 256 + q.val) / 256 % 128 = r.val / 2; omega
    | ⟨3, _⟩ => show (((a.val * 128 + b.val) * 128 + r.val / 2) * 256 + q.val) / 2 % 128 = q.val / 2; omega
    | ⟨4, _⟩ => show (((a.val * 128 + b.val) * 128 + r.val / 2) * 256 + q.val) % 2 = q.val % 2; omega
  -- the broadcast along the new column axis forgets q % 2
  have e0 : idx_main_v0 (ix5 a b (half r) (half q) (⟨q.val % 2, by omega⟩ : Fin 2)) = ix4 a b (half r) (half q) := by
    funext d
    match d with
    | ⟨0, _⟩ => rfl
    | ⟨1, _⟩ => rfl
    | ⟨2, _⟩ => rfl
    | ⟨3, _⟩ => rfl
  rw [val_main_v3_apply, e3, val_main_v2_apply, e2, val_main_v1_apply, e1, val_main_v0_apply, e0]

/-- The reference computes the upsampled array. -/
theorem ref_eq (x : (⟨S16x128x128x128, .f32⟩ : BufTy).Contents (Elt F)) : val_main_v3 (F := F) x = upArray x :=
  funext fun i => (congrArg (val_main_v3 (F := F) x) (eq_ix4 i)).trans (ref_at x (i 0) (i 1) (i 2) (i 3))

end Cert.ReferenceIdeal.Hand

end
-- ==== Proof.lean ====
/-
  The kernel and the reference both compute the nearest-neighbour upsampling by two of a
  [16, 128, 128, 128] array along its last two axes: entry (b, c, i, j) of the result is entry
  (b, c, i / 2, j / 2) of the argument. Neither program does any arithmetic on the entries, so the
  two results are equal entry by entry for every argument, finite or not, and the precondition is
  not used.

  The kernel works on a 16 × 4 grid, one batch entry and 32 channels per point; at each point a loop
  of 32 trips upsamples one 128 × 128 channel into a 256 × 256 one by two reshape–broadcast–reshape
  steps (Proof/Payload.lean), the 32 stores leave the staged block upsampled (Proof/Block.lean), and the
  64 written-back blocks tile the result (Proof/Array.lean). The reference applies the same two steps
  to the whole array (Proof/Reference.lean). Proof/Upsample.lean states the common function.

  The three frames are the programs' runs with the result dropped; the idealized kernel is the
  kernel's own text read over the extended reals, so nothing is owed for the idealization.
-/
import proofs.«114544_j57312043598151_2_alg».proof.Defs
import proofs.«114544_j57312043598151_2_alg».proof.Proof.Gen.Kernel
import proofs.«114544_j57312043598151_2_alg».proof.Proof.Gen.Kernel.Skeleton
import proofs.«114544_j57312043598151_2_alg».proof.Proof.Gen.Kernel.Loops
import proofs.«114544_j57312043598151_2_alg».proof.Proof.Gen.Kernel.Launch
import proofs.«114544_j57312043598151_2_alg».proof.Proof.Gen.Kernel.Points
import proofs.«114544_j57312043598151_2_alg».proof.Proof.Gen.Kernel.Frame
import proofs.«114544_j57312043598151_2_alg».proof.Proof.Gen.KernelIdeal
import proofs.«114544_j57312043598151_2_alg».proof.Proof.Gen.KernelIdeal.Skeleton
import proofs.«114544_j57312043598151_2_alg».proof.Proof.Gen.KernelIdeal.Loops
import proofs.«114544_j57312043598151_2_alg».proof.Proof.Gen.KernelIdeal.Launch
import proofs.«114544_j57312043598151_2_alg».proof.Proof.Gen.KernelIdeal.Points
import proofs.«114544_j57312043598151_2_alg».proof.Proof.Gen.KernelIdeal.Frame
import proofs.«114544_j57312043598151_2_alg».proof.Proof.Gen.ReferenceIdeal
import proofs.«114544_j57312043598151_2_alg».proof.Proof.Gen.Pre_finite_inputs
import proofs.«114544_j57312043598151_2_alg».proof.Proof.Gen.KernelIdeal.Value
import proofs.«114544_j57312043598151_2_alg».proof.Proof.Gen.ReferenceIdeal.Run
import proofs.«114544_j57312043598151_2_alg».proof.Proof.Gen.ReferenceIdeal.Read
import proofs.«114544_j57312043598151_2_alg».proof.Proof.Array
import proofs.«114544_j57312043598151_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed terminates without a fault and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the upsampled argument as their result. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Hand.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
